-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x4096 : Shape := ⟨3, ![2, 4096, 4096]⟩
abbrev S4096x4096 : Shape := ⟨2, ![4096, 4096]⟩
abbrev S4096x128 : Shape := ⟨2, ![4096, 128]⟩
abbrev S4096 : Shape := ⟨1, ![4096]⟩
abbrev S_ : Shape := ⟨0, ![]⟩

class Facts : Prop where
  bcast_S_S2x4096x4096 : S_.BroadcastsInDim S2x4096x4096 (![] : Fin 0 → Fin S2x4096x4096.rank)
  reducesTo_S2x4096x4096_S_d0_1_2 : S2x4096x4096.ReducesTo [0, 1, 2] S_
  h_S_ : 0 < S_.numel
  bcast_S_S4096x128 : S_.BroadcastsInDim S4096x128 (![] : Fin 0 → Fin S4096x128.rank)
  reducesTo_S4096x128_S_d0_1 : S4096x128.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S2x4096x4096 .f32) (main_arg1 : IVec S4096x4096 32) (main_arg2 : FVec F S4096x128 .f32) (main_arg3 : FVec F S4096 .f32) : IVec S_ 1 :=
  let main_v0 : FVec F S2x4096x4096 .f32 := Host.absf main_arg0
  let main_cst : FVec F S_ .f32 := constant S_ .f32 0x7F800000#32
  let main_v1 : FVec F S2x4096x4096 .f32 := broadcastInDim S2x4096x4096 ![] bcast_S_S2x4096x4096 main_cst
  let main_v2 : IVec S2x4096x4096 1 := cmpf .olt main_v0 main_v1
  let main_c : IVec S_ 1 := constantI S_ 1 1#1
  let main_v3 : IVec S_ 1 := (fun x v => Host.reduce IntOp.andi x v reducesTo_S2x4096x4096_S_d0_1_2 h_S_) main_v2 main_c
  let main_v4 : FVec F S4096x128 .f32 := Host.absf main_arg2
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S2x4096x4096 : Shape := ⟨3, ![2, 4096, 4096]⟩
abbrev S4096x4096 : Shape := ⟨2, ![4096, 4096]⟩
abbrev S4096x128 : Shape := ⟨2, ![4096, 128]⟩
abbrev S4096 : Shape := ⟨1, ![4096]⟩
abbrev S8192x4096 : Shape := ⟨2, ![8192, 4096]⟩
abbrev S4096x128x32 : Shape := ⟨3, ![4096, 128, 32]⟩
abbrev S1x4096 : Shape := ⟨2, ![1, 4096]⟩
abbrev S1024x512 : Shape := ⟨2, ![1024, 512]⟩
abbrev S512x1024 : Shape := ⟨2, ![512, 1024]⟩
abbrev S1x1024 : Shape := ⟨2, ![1, 1024]⟩
abbrev S1024x1024 : Shape := ⟨2, ![1024, 1024]⟩

abbrev nBuf : Space → Nat
  | .hbm => 10
  | .vmem => 11
  | .smem => 0
  | _ => 0

abbrev bufTy : (tb : Table) → Fin (tcTables nBuf tb) → BufTy
  | .hbm, ⟨0, _⟩ => ⟨S2x4096x4096, .f32⟩
  | .hbm, ⟨1, _⟩ => ⟨S4096x4096, .i32⟩
  | .hbm, ⟨2, _⟩ => ⟨S4096x128, .f32⟩
  | .hbm, ⟨3, _⟩ => ⟨S4096, .f32⟩
  | .hbm, ⟨4, _⟩ => ⟨S8192x4096, .f32⟩
  | .hbm, ⟨5, _⟩ => ⟨S4096x128x32, .f32⟩
  | .hbm, ⟨6, _⟩ => ⟨S4096x4096, .f32⟩
  | .hbm, ⟨7, _⟩ => ⟨S1x4096, .f32⟩
  | .hbm, ⟨8, _⟩ => ⟨S8192x4096, .f32⟩
  | .hbm, ⟨9, _⟩ => ⟨S2x4096x4096, .f32⟩
  | .local _ .vmem, ⟨0, _⟩ => ⟨S1024x512, .f32⟩
  | .local _ .vmem, ⟨1, _⟩ => ⟨S1024x512, .f32⟩
  | .local _ .vmem, ⟨2, _⟩ => ⟨S512x1024, .i32⟩
  | .local _ .vmem, ⟨3, _⟩ => ⟨S512x1024, .i32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v18 : BitVec 1 := Scalar.cmpi .eq arg2 c7_i32
  let v19 : BitVec 32 := Scalar.extui v18
  let c0_i32_10 : BitVec 32 := 0#32
  let v20 : BitVec 1 := Scalar.cmpi .ne v19 c0_i32_10
  v20

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S2x4096x4096_S8192x4096 : S2x4096x4096.ShapeCasts S8192x4096
  bcast_S4096x128_S4096x128x32_0_1 : S4096x128.BroadcastsInDim S4096x128x32 (![0, 1] : Fin 2 → Fin S4096x128x32.rank)
  shapeCasts_S4096x128x32_S4096x4096 : S4096x128x32.ShapeCasts S4096x4096
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x4096_S2x4096x4096 : S8192x4096.ShapeCasts S2x4096x4096
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .f32 = 32 ∨ (Rect.block (s := S8192x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .i32 = 32 ∨ (Rect.block (s := S4096x4096) S512x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x4096.size a
  hwx0_2 : ∀ i : grid0.Coords, EltTy.bits .f32 = 32 ∨ (Rect.block (s := S4096x4096) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x4096.size a
  hwx0_4 : ∀ i : grid0.Coords, EltTy.bits .f32 = 32 ∨ (Rect.block (s := S8192x4096) S1024x1024.size (cc0_transform_4 i) (hinb0_4 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S2x4096x4096 : Shape := ⟨3, ![2, 4096, 4096]⟩
abbrev S4096x4096 : Shape := ⟨2, ![4096, 4096]⟩
abbrev S4096x128 : Shape := ⟨2, ![4096, 128]⟩
abbrev S4096 : Shape := ⟨1, ![4096]⟩
abbrev S4096x128x32 : Shape := ⟨3, ![4096, 128, 32]⟩
abbrev S4096x128x1 : Shape := ⟨3, ![4096, 128, 1]⟩
abbrev S1x1x4096 : Shape := ⟨3, ![1, 1, 4096]⟩

abbrev nBuf : Space → Nat
  | .hbm => 14
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S4096x4096, .i32⟩
  | .hbm, ⟨2, _⟩ => ⟨S4096x128, .f32⟩
  | .hbm, ⟨3, _⟩ => ⟨S4096, .f32⟩
  | .hbm, ⟨4, _⟩ => ⟨S4096x128x32, .i32⟩
  | .hbm, ⟨5, _⟩ => ⟨S4096x128x32, .f32⟩
  | .hbm, ⟨6, _⟩ => ⟨S4096x128x1, .f32⟩
  | .hbm, ⟨7, _⟩ => ⟨S4096x128x32, .f32⟩
  | .hbm, ⟨8, _⟩ => ⟨S4096x128x32, .f32⟩
  | .hbm, ⟨9, _⟩ => ⟨S4096x4096, .f32⟩
  | .hbm, ⟨10, _⟩ => ⟨S2x4096x4096, .f32⟩
  | .hbm, ⟨11, _⟩ => ⟨S1x1x4096, .f32⟩
  | .hbm, ⟨12, _⟩ => ⟨S2x4096x4096, .f32⟩
  | .hbm, ⟨13, _⟩ => ⟨S2x4096x4096, .f32⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]

class Facts₀ : Prop where
  shapeCasts_S4096x4096_S4096x128x32 : S4096x4096.ShapeCasts S4096x128x32
  bcast_S4096x128_S4096x128x1_0_1 : S4096x128.BroadcastsInDim S4096x128x1 (![0, 1] : Fin 2 → Fin S4096x128x1.rank)
  bcast_S4096x128x1_S4096x128x32_0_1_2 : S4096x128x1.BroadcastsInDim S4096x128x32 (![0, 1, 2] : Fin 3 → Fin S4096x128x32.rank)
  shapeCasts_S4096x128x32_S4096x4096 : S4096x128x32.ShapeCasts S4096x4096
  bcast_S4096_S1x1x4096_2 : S4096.BroadcastsInDim S1x1x4096 (![2] : Fin 1 → Fin S1x1x4096.rank)
  bcast_S1x1x4096_S2x4096x4096_0_1_2 : S1x1x4096.BroadcastsInDim S2x4096x4096 (![0, 1, 2] : Fin 3 → Fin S2x4096x4096.rank)
  dot_S2x4096x4096_S4096x4096_S2x4096x4096_2_0_01_1_n_n_wf : DotDims.WF S2x4096x4096 S4096x4096 S2x4096x4096 [2] [0] [0, 1] [1] [] []

variable [Facts₀]

def dot_S2x4096x4096_S4096x4096_S2x4096x4096_2_0_01_1_n_n : DotDims S2x4096x4096 S4096x4096 S2x4096x4096 where
  lhsContracting := [2]
  rhsContracting := [0]
  lhsNonContracting := [0, 1]
  rhsNonContracting := [1]
  lhsBatch := []
  rhsBatch := []
  wf := dot_S2x4096x4096_S4096x4096_S2x4096x4096_2_0_01_1_n_n_wf

class Facts : Prop extends Facts₀ where

variable [Facts]
-- ==== Proof.LinearSpec.lean ====
/-
  The function both programs compute, read on the extended reals: a linear layer whose weight matrix is stored as
  signed integer codes with one real scale for every run of 32 consecutive output columns,

      out[b, s, o] = (∑ i < 4096, x[b, s, i] · (code[i, o] · scale[i, o / 32])) + bias[o].

  One program forms the sum over `i` at once; the other forms it in eight consecutive runs of 512 inputs, adding each
  run's sum to a running total that starts from zero. Addition on the extended reals is commutative and associative
  (an infinite term included), so the two agree with no finiteness assumption: the law needed is only that a sum of 4096
  terms is the sum of its eight consecutive runs of 512 (`sum_runs`), together with the bookkeeping of the running total
  (`partialSum`): it starts at the first run, grows by one run at a time, and after the last run is the whole sum.
-/
import Idealize.ShloMosaic.PureOps.Ideal
import Idealize.ShloMosaic.Lib.ValueIdx

noncomputable section

open scoped BigOperators

namespace Cert.QuantLinear

open Idealize.ShloMosaic Idealize.ShloMosaic.ValueIdx

/-! ## The layer -/

/-- The group of 32 consecutive output columns that column `o` lies in. -/
def group (o : Fin 4096) : Fin 128 := ⟨o.val / 32, by have := o.isLt; omega⟩

/-- The dequantized weight at input `i`, output `o`: the code, read as a signed integer, times its group's scale. -/
def weight (code : (⟨2, ![4096, 4096]⟩ : Shape).Idx → BitVec 32) (scale : (⟨2, ![4096, 128]⟩ : Shape).Idx → EReal)
    (i o : Fin 4096) : EReal :=
  (((code (ix2 i o)).toInt : ℝ) : EReal) * scale (ix2 i (group o))

/-- One term of the layer's sum: activation `i` of row `(b, s)` times the weight from `i` to `o`. -/
def term (x : (⟨3, ![2, 4096, 4096]⟩ : Shape).Idx → EReal) (code : (⟨2, ![4096, 4096]⟩ : Shape).Idx → BitVec 32)
    (scale : (⟨2, ![4096, 128]⟩ : Shape).Idx → EReal) (b : Fin 2) (s o i : Fin 4096) : EReal :=
  x (ix3 b s i) * weight code scale i o

/-- The layer: at `(b, s, o)` the sum over the inputs `i` of the terms, plus the bias of `o`. -/
def linear (x : (⟨3, ![2, 4096, 4096]⟩ : Shape).Idx → EReal) (code : (⟨2, ![4096, 4096]⟩ : Shape).Idx → BitVec 32)
    (scale : (⟨2, ![4096, 128]⟩ : Shape).Idx → EReal) (bias : (⟨1, ![4096]⟩ : Shape).Idx → EReal) :
    (⟨3, ![2, 4096, 4096]⟩ : Shape).Idx → EReal :=
  fun j => (∑ i : Fin 4096, term x code scale (j 0) (j 1) (j 2) i) + bias (ix1 (j 2))

/-! ## A sum of 4096 terms by runs of 512 -/

/-- Input `i` is the `r`-th of run `k`, with `i = 512 k + r`: the inputs are the pairs (run, place in the run). -/
def runEquiv : Fin 8 × Fin 512 ≃ Fin 4096 where
  toFun p := ⟨p.1.val * 512 + p.2.val, by have := p.1.isLt; have := p.2.isLt; omega⟩
  invFun i := (⟨i.val / 512, by have := i.isLt; omega⟩, ⟨i.val % 512, Nat.mod_lt _ (by norm_num)⟩)
  left_inv p := by
    rcases p with ⟨a, r⟩
    refine Prod.ext (Fin.ext ?_) (Fin.ext ?_)
    · show (a.val * 512 + r.val) / 512 = a.val
      have := r.isLt; omega
    · show (a.val * 512 + r.val) % 512 = r.val
      have := r.isLt; omega
  right_inv i := Fin.ext (by
    show i.val / 512 * 512 + i.val % 512 = i.val
    omega)

/-- The `r`-th input of run `k`. -/
def inRun (k : Fin 8) (r : Fin 512) : Fin 4096 := runEquiv (k, r)

theorem inRun_val (k : Fin 8) (r : Fin 512) : (inRun k r).val = k.val * 512 + r.val := rfl

/-- A sum over the 4096 inputs is the sum over the eight runs of each run's sum. -/
theorem sum_runs {M : Type*} [AddCommMonoid M] (f : Fin 4096 → M) :
    ∑ i : Fin 4096, f i = ∑ k : Fin 8, ∑ r : Fin 512, f (inRun k r) := by
  rw [← Equiv.sum_comp runEquiv f, Fintype.sum_prod_type]
  rfl

/-! ## The running total over the runs -/

/-- The total of the runs up to and including run `k`. -/
def partialSum {M : Type*} [AddCommMonoid M] (g : Fin 8 → M) (k : Fin 8) : M :=
  ∑ a ∈ Finset.univ.filter (fun a : Fin 8 => a ≤ k), g a

/-- At the first run the running total is that run. -/
theorem partialSum_first {M : Type*} [AddCommMonoid M] (g : Fin 8 → M) (k : Fin 8) (hk : k.val = 0) :
    partialSum g k = g k := by
  unfold partialSum
  have h : Finset.univ.filter (fun a : Fin 8 => a ≤ k) = {k} := by
    ext a
    simp only [Finset.mem_filter, Finset.mem_univ, true_and, Finset.mem_singleton, Fin.le_def, Fin.ext_iff]
    omega
  rw [h, Finset.sum_singleton]

/-- Each later run is added to the running total of the runs before it. -/
theorem partialSum_next {M : Type*} [AddCommMonoid M] (g : Fin 8 → M) (k' k : Fin 8) (h : k'.val + 1 = k.val) :
    partialSum g k = partialSum g k' + g k := by
  unfold partialSum
  have hs : Finset.univ.filter (fun a : Fin 8 => a ≤ k) = insert k (Finset.univ.filter (fun a : Fin 8 => a ≤ k')) := by
    ext a
    simp only [Finset.mem_filter, Finset.mem_univ, true_and, Finset.mem_insert, Fin.le_def, Fin.ext_iff]
    omega
  have hn : k ∉ Finset.univ.filter (fun a : Fin 8 => a ≤ k') := by
    simp only [Finset.mem_filter, Finset.mem_univ, true_and, Fin.le_def]
    omega
  rw [hs, Finset.sum_insert hn, add_comm]

/-- After the last run the running total is the sum over all eight runs. -/
theorem partialSum_last {M : Type*} [AddCommMonoid M] (g : Fin 8 → M) (k : Fin 8) (hk : k.val = 7) :
    partialSum g k = ∑ a : Fin 8, g a := by
  unfold partialSum
  rw [Finset.filter_true_of_mem]
  intro a _
  have := a.isLt
  simp only [Fin.le_def]
  omega

end Cert.QuantLinear

end
-- ==== Proof.ReferenceIsLinear.lean ====
/-
  The reference program computes the layer. Its ten host operations, read at an output index (b, s, o): the codes are
  regrouped as [4096, 128, 32] and converted, the scales are repeated along a new last axis of 32, the two are multiplied
  and the product regrouped back to [4096, 4096] — so the weight at (i, o) is the code at (i, o) times the scale at
  (i, o / 32), because row-major position (i·128 + g)·32 + j of the regrouped array is position i·4096 + (32 g + j) of the
  flat one —; the contraction with the activations over their last axis is the sum over i; and the bias, repeated over
  the two leading axes, is added.
-/
import proofs.«100002_j86586540687542_1_alg».proof.Proof.Gen.ReferenceIdeal.Read
import proofs.«100002_j86586540687542_1_alg».proof.Proof.LinearSpec

noncomputable section

open scoped BigOperators

namespace Cert.QuantLinear

open Idealize.ShloMosaic Idealize.ShloMosaic.ValueIdx Cert.ReferenceIdeal Cert.ReferenceIdeal.Read

/-- The activation the contraction reads for output (b, s, o) at input k is x[b, s, k]. -/
theorem lhs_index (b : Fin 2) (s o k : Fin 4096) : lidx_main_v6 (ix3 b s o) k = ix3 b s k :=
  funext fun a => match a with
    | ⟨0, _⟩ => rfl
    | ⟨1, _⟩ => rfl
    | ⟨2, _⟩ => rfl

/-- The weight it reads is the one at (k, o). -/
theorem rhs_index (b : Fin 2) (s o k : Fin 4096) : ridx_main_v6 (ix3 b s o) k = ix2 k o :=
  funext fun a => match a with
    | ⟨0, _⟩ => rfl
    | ⟨1, _⟩ => rfl

/-- Regrouping [4096, 4096] as [4096, 128, 32] and back returns to the same code. -/
theorem code_index (k o : Fin 4096) : idx_main_v0 (idx_main_v5 (ix2 k o)) = ix2 k o :=
  funext fun a => Fin.ext (by
    have hk := k.isLt; have ho := o.isLt
    match a with
    | ⟨0, _⟩ =>
      show (((k.val * 4096 + o.val) / 4096 * 128 + (k.val * 4096 + o.val) / 32 % 128) * 32 + (k.val * 4096 + o.val) % 32) / 4096 = k.val
      omega
    | ⟨1, _⟩ =>
      show (((k.val * 4096 + o.val) / 4096 * 128 + (k.val * 4096 + o.val) / 32 % 128) * 32 + (k.val * 4096 + o.val) % 32) % 4096 = o.val
      omega)

/-- The scale that meets the code at (k, o) is the one of row k and of o's group of 32 columns. -/
theorem scale_index (k o : Fin 4096) : idx_main_v2 (idx_main_v3 (idx_main_v5 (ix2 k o))) = ix2 k (group o) :=
  funext fun a => Fin.ext (by
    have hk := k.isLt; have ho := o.isLt
    match a with
    | ⟨0, _⟩ =>
      show (k.val * 4096 + o.val) / 4096 = k.val
      omega
    | ⟨1, _⟩ =>
      show (k.val * 4096 + o.val) / 32 % 128 = o.val / 32
      omega)

/-- The bias added at (b, s, o) is the bias of o. -/
theorem bias_index (b : Fin 2) (s o : Fin 4096) : idx_main_v7 (idx_main_v8 (ix3 b s o)) = ix1 o :=
  funext fun a => match a with
    | ⟨0, _⟩ => rfl

/-- The reference's result, as a function of its four arguments, is the layer. -/
theorem reference_eq (x : (⟨S2x4096x4096, .f32⟩ : BufTy).Contents (Elt Ideal)) (code : (⟨S4096x4096, .i32⟩ : BufTy).Contents (Elt Ideal))
    (scale : (⟨S4096x128, .f32⟩ : BufTy).Contents (Elt Ideal)) (bias : (⟨S4096, .f32⟩ : BufTy).Contents (Elt Ideal)) :
    val_main_v9 (F := Ideal) x code scale bias = linear x code scale bias := by
  funext j
  obtain ⟨b, s, o, rfl⟩ : ∃ (b : Fin 2) (s o : Fin 4096), j = ix3 b s o := ⟨j 0, j 1, j 2, eq_ix3 j⟩
  rw [val_main_v9_apply, val_main_v6_apply, val_main_v8_apply, val_main_v7_apply, bias_index]
  show (∑ k : Fin 4096, _) + _ = (∑ i : Fin 4096, _) + _
  refine congrArg (· + bias (ix1 o)) (Finset.sum_congr rfl fun k _ => ?_)
  rw [lhs_index, rhs_index, val_main_v5_apply, val_main_v4_apply, val_main_v1_apply, val_main_v0_apply, val_main_v3_apply,
    val_main_v2_apply, code_index, scale_index]
  rfl

end Cert.QuantLinear

end
-- ==== Proof.CaseValues.lean ====
/-
  What one run of the body leaves, in each of its three control cases, as the body's stored values of what it loaded:
    • at the first block of the contraction axis the scratch is reset to the zero tile and then receives the accumulation
      step over that zero tile;
    • at a middle block the scratch receives the accumulation step over what the point before left in it;
    • at the last block likewise, and the output tile receives the final step (scratch plus bias) of that new scratch.
  Every load and store is of a whole buffer, so each buffer ends at the value of the last store into it, and a load reads
  what was last stored.
-/
import proofs.«100002_j86586540687542_1_alg».proof.Proof.Gen.KernelIdeal.Frame
import Idealize.ShloMosaic.Lib.Pipeline.Value

set_option maxRecDepth 16384

noncomputable section

namespace Cert.QuantLinear.Body

open Idealize.ShloMosaic Idealize.ShloMosaic.TcCoe Idealize.ShloMosaic.Tactic Idealize.SL.Sem
open Cert.KernelIdeal Cert.KernelIdeal.Gen

variable {F : FTy → Type} [FloatOps F]

/-- A rectangle that starts at row 0, column 0. -/
theorem origin2 : (![0, 0] : Fin 2 → ℕ) = fun _ => 0 :=
  funext fun a => match a with
    | ⟨0, _⟩ => rfl
    | ⟨1, _⟩ => rfl

/-- First block: the scratch ends at the accumulation step over the zero tile. -/
theorem scratch_first (c : Dev nD) (i : grid0.Coords) (arg3 : Memref sig .tc .vmem S1024x512 .f32) (harg3 : arg3.IsWhole) (arg4 : Memref sig .tc .vmem S512x1024 .i32) (harg4 : arg4.IsWhole) (arg5 : Memref sig .tc .vmem S512x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : ¬cond0_1 i) (x0 : Vec F S1024x512 .f32) (x1 : Vec F S512x1024 .i32) (x2 : Vec F S512x1024 .f32) (x3 : Vec F S1x1024 .f32) :
    sout0_A_0 c i arg3 harg3 arg4 harg4 arg5 harg5 arg6 harg6 arg7 harg7 arg8 harg8 hc0 hc1 x0 x1 x2 x3 = k0_pay2 x1 x2 x0 (k0_pay1 (F := F)) := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero origin2]
  simp only [View.readAt_eq_ld, harg3.read_unread, harg4.read_unread, harg5.read_unread,
    View.ld_unit_zero (S := S1024x512) origin2, View.ld_unit_zero (S := S512x1024) origin2]
  rw [View.readCov_unit_zero (S := S1024x1024) arg8.view origin2]

/-- Middle block: the scratch ends at the accumulation step over what it held. -/
theorem scratch_middle (c : Dev nD) (i : grid0.Coords) (arg3 : Memref sig .tc .vmem S1024x512 .f32) (harg3 : arg3.IsWhole) (arg4 : Memref sig .tc .vmem S512x1024 .i32) (harg4 : arg4.IsWhole) (arg5 : Memref sig .tc .vmem S512x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : ¬cond0_1 i) (x0 : Vec F S1024x512 .f32) (x1 : Vec F S512x1024 .i32) (x2 : Vec F S512x1024 .f32) (x3 : Vec F S1x1024 .f32) (xs0 : Vec F S1024x1024 .f32) :
    sout0_B_0 c i arg3 harg3 arg4 harg4 arg5 harg5 arg6 harg6 arg7 harg7 arg8 harg8 hc0 hc1 x0 x1 x2 x3 xs0 = k0_pay2 x1 x2 x0 xs0 := by
  unfold sout0_B_0
  rw [View.read_writes_eq_canon _ _ _ (scover0_B_0 c i arg3 harg3 arg4 harg4 arg5 harg5 arg6 harg6 arg7 harg7 arg8 harg8 hc0 hc1 x0 x1 x2 x3 xs0)]
  unfold kernelRun0_B
  dsimp only
  sl_unfold_words
  rw [View.canon_unit_zero origin2]
  simp only [View.readAt_eq_ld, harg3.read_unread, harg4.read_unread, harg5.read_unread, harg8.read_unread,
    View.ld_unit_zero (S := S1024x512) origin2, View.ld_unit_zero (S := S512x1024) origin2,
    View.ld_unit_zero (S := S1024x1024) origin2]

/-- Last block: the scratch ends at the accumulation step over what it held, -/
theorem scratch_last (c : Dev nD) (i : grid0.Coords) (arg3 : Memref sig .tc .vmem S1024x512 .f32) (harg3 : arg3.IsWhole) (arg4 : Memref sig .tc .vmem S512x1024 .i32) (harg4 : arg4.IsWhole) (arg5 : Memref sig .tc .vmem S512x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i) (x0 : Vec F S1024x512 .f32) (x1 : Vec F S512x1024 .i32) (x2 : Vec F S512x1024 .f32) (x3 : Vec F S1x1024 .f32) (xs0 : Vec F S1024x1024 .f32) :
    sout0_C_0 c i arg3 harg3 arg4 harg4 arg5 harg5 arg6 harg6 arg7 harg7 arg8 harg8 hc0 hc1 x0 x1 x2 x3 xs0 = k0_pay2 x1 x2 x0 xs0 := by
  unfold sout0_C_0
  rw [View.read_writes_eq_canon _ _ _ (scover0_C_0 c i arg3 harg3 arg4 harg4 arg5 harg5 arg6 harg6 arg7 harg7 arg8 harg8 hc0 hc1 x0 x1 x2 x3 xs0)]
  unfold kernelRun0_C
  dsimp only
  sl_unfold_words
  rw [View.canon_unit_zero origin2]
  simp only [View.readAt_eq_ld, harg3.read_unread, harg4.read_unread, harg5.read_unread, harg8.read_unread,
    View.ld_unit_zero (S := S1024x512) origin2, View.ld_unit_zero (S := S512x1024) origin2,
    View.ld_unit_zero (S := S1024x1024) origin2]

/-- and the output tile at the final step of that scratch: its entries plus the bias row. -/
theorem output_last (c : Dev nD) (i : grid0.Coords) (arg3 : Memref sig .tc .vmem S1024x512 .f32) (harg3 : arg3.IsWhole) (arg4 : Memref sig .tc .vmem S512x1024 .i32) (harg4 : arg4.IsWhole) (arg5 : Memref sig .tc .vmem S512x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i) (x0 : Vec F S1024x512 .f32) (x1 : Vec F S512x1024 .i32) (x2 : Vec F S512x1024 .f32) (x3 : Vec F S1x1024 .f32) (xs0 : Vec F S1024x1024 .f32) :
    out0_C_4 c i arg3 harg3 arg4 harg4 arg5 harg5 arg6 harg6 arg7 harg7 arg8 harg8 hc0 hc1 x0 x1 x2 x3 xs0 = k0_pay3 (k0_pay2 x1 x2 x0 xs0) x3 := by
  unfold out0_C_4
  rw [View.read_writes_eq_canon _ _ _ (cover0_C_4 c i arg3 harg3 arg4 harg4 arg5 harg5 arg6 harg6 arg7 harg7 arg8 harg8 hc0 hc1 x0 x1 x2 x3 xs0)]
  unfold kernelRun0_C
  dsimp only
  sl_unfold_words
  rw [View.canon_unit_zero origin2, View.readCov_unit_zero (S := S1024x1024) arg8.view origin2]
  simp only [View.readAt_eq_ld, harg3.read_unread, harg4.read_unread, harg5.read_unread, harg6.read_unread, harg8.read_unread,
    View.ld_unit_zero (S := S1024x512) origin2, View.ld_unit_zero (S := S512x1024) origin2,
    View.ld_unit_zero (S := S1024x1024) origin2, View.ld_unit_zero (S := S1x1024) origin2]

end Cert.QuantLinear.Body

end
-- ==== Proof.BodyValues.lean ====
/-
  The body's arithmetic at one entry (p, q) of the 1024 × 1024 tile, on the extended reals. Changes of float format are
  the identity there, and a matrix product into a zero accumulator is a plain sum of products, so the three values the
  body stores are:
    • the zero tile: 0 everywhere;
    • the accumulation step: the scratch's entry plus ∑ r < 512, a[p, r] · (code[r, q] · scale[r, q]), where a is the
      point's 1024 × 512 block of activations and code, scale its 512 × 1024 blocks of codes and repeated scales;
    • the final step: the scratch's entry plus the bias block's one row at column q.
-/
import proofs.«100002_j86586540687542_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.QuantLinear.Body

open Idealize.ShloMosaic Idealize.ShloMosaic.ValueIdx Cert.KernelIdeal Cert.KernelIdeal.Gen

/-- The tile product's dimension numbers: [1024, 512] × [512, 1024], contracting the first operand's columns with the
    second's rows. -/
abbrev tileDot : DotDims S1024x512 S512x1024 S1024x1024 := dot_S1024x512_S512x1024_S1024x1024_1_0_0_1_n_n

/-! ## The operand entries a tile entry's product reads -/

theorem lhs_row (j : S1024x1024.Idx) (k : tileDot.contr.Idx) : (tileDot.lhsIdx j k 0).val = (j 0).val := by
  unfold DotDims.lhsIdx
  rw [dif_neg (show ¬(0 : Fin S1024x512.rank) ∈ tileDot.lhsBatch by decide),
    dif_pos (show (0 : Fin S1024x512.rank) ∈ tileDot.lhsNonContracting by decide)]
  rfl

theorem lhs_col (j : S1024x1024.Idx) (k : tileDot.contr.Idx) : (tileDot.lhsIdx j k 1).val = (k ⟨0, by decide⟩).val :=
  tileDot.lhsIdx_val_of_single rfl j k

theorem rhs_row (j : S1024x1024.Idx) (k : tileDot.contr.Idx) : (tileDot.rhsIdx j k 0).val = (k ⟨0, by decide⟩).val :=
  tileDot.rhsIdx_val_of_single rfl j k

theorem rhs_col (j : S1024x1024.Idx) (k : tileDot.contr.Idx) : (tileDot.rhsIdx j k 1).val = (j 1).val := by
  unfold DotDims.rhsIdx
  rw [dif_neg (show ¬(1 : Fin S512x1024.rank) ∈ tileDot.rhsBatch by decide),
    dif_pos (show (1 : Fin S512x1024.rank) ∈ tileDot.rhsNonContracting by decide)]
  rfl

/-- The tile product into a zero accumulator, at (p, q): the sum over the 512 shared indices r of L[p, r] · R[r, q]. -/
theorem matmul_tile_apply (L : FVec Ideal S1024x512 .bf16) (R : FVec Ideal S512x1024 .bf16) (p q : Fin 1024) :
    matmul (F := Ideal) tileDot none L R (constant (F := Ideal) S1024x1024 .f32 0x00000000#32) (ix2 p q)
      = ∑ r : Fin 512, L (ix2 p r) * R (ix2 r q) := by
  simp only [matmul]
  rw [Ideal.matmul_constant_zero_apply, ← Equiv.sum_comp (contrEquiv1 tileDot 512 rfl rfl).symm]
  refine Finset.sum_congr rfl fun r _ => ?_
  have hk := contrEquiv1_symm_val tileDot 512 rfl rfl r
  have el : tileDot.lhsIdx (ix2 p q) ((contrEquiv1 tileDot 512 rfl rfl).symm r) = ix2 p r := funext fun a => Fin.ext (by
    match a with
    | ⟨0, _⟩ => exact lhs_row _ _
    | ⟨1, _⟩ => exact (lhs_col _ _).trans hk)
  have er : tileDot.rhsIdx (ix2 p q) ((contrEquiv1 tileDot 512 rfl rfl).symm r) = ix2 r q := funext fun a => Fin.ext (by
    match a with
    | ⟨0, _⟩ => exact (rhs_row _ _).trans hk
    | ⟨1, _⟩ => exact rhs_col _ _)
  rw [el, er]

/-! ## The three stored values -/

/-- The tile the scratch is reset to is zero everywhere. -/
theorem zeros_apply (y : S1024x1024.Idx) : k0_pay1 (F := Ideal) y = 0 := by
  unfold k0_pay1
  refine (congrFun (shapeCast_self _ _) y).trans ?_
  exact Ideal.ofBits_zero_f32

/-- The accumulation step at (p, q): the scratch's entry plus the block's sum of products. -/
theorem accumulate_apply (code : Vec Ideal S512x1024 .i32) (scale : Vec Ideal S512x1024 .f32) (a : Vec Ideal S1024x512 .f32)
    (acc : Vec Ideal S1024x1024 .f32) (p q : Fin 1024) :
    k0_pay2 (F := Ideal) code scale a acc (ix2 p q)
      = acc (ix2 p q) + ∑ r : Fin 512, a (ix2 p r) * ((((code (ix2 r q)).toInt : ℝ) : EReal) * scale (ix2 r q)) := by
  unfold k0_pay2
  refine (congrFun (shapeCast_self _ _) (ix2 p q)).trans ?_
  refine congrArg (acc (ix2 p q) + ·) ?_
  refine (matmul_tile_apply _ _ p q).trans ?_
  refine Finset.sum_congr rfl fun r _ => ?_
  show (shapeCast S1024x512 a shapeCasts_S1024x512_S1024x512) (ix2 p r)
      * (FloatOps.sitofp (F := Ideal) .f32 (code (ix2 r q)) * (shapeCast S512x1024 scale shapeCasts_S512x1024_S512x1024) (ix2 r q)) = _
  rw [shapeCast_self, shapeCast_self]
  rfl

/-- The final step at (p, q): the scratch's entry plus the bias row's entry at column q. -/
theorem add_bias_apply (acc : Vec Ideal S1024x1024 .f32) (bias : Vec Ideal S1x1024 .f32) (p q : Fin 1024) :
    k0_pay3 (F := Ideal) acc bias (ix2 p q) = acc (ix2 p q) + bias (ix2 (0 : Fin 1) q) := by
  unfold k0_pay3
  refine congrArg (acc (ix2 p q) + ·) ?_
  refine (broadcastTo_1b_ab_apply _ _ p q).trans ?_
  exact congrFun (shapeCast_self bias _) _

end Cert.QuantLinear.Body

end
-- ==== Proof.TileBlocks.lean ====
/-
  The grid has 8 × 4 × 8 = 256 points, visited in row-major order: point t has row-tile t / 32, column-tile t / 8 % 4 and
  contraction run t % 8. At point t the four input windows hold
    • rows [1024 a, 1024 a + 1024) × inputs of run k of the merged activations,
    • inputs of run k × columns [1024 b, 1024 b + 1024) of the codes, and of the repeated scales,
    • the one bias row × the same columns,
  where (a, b, k) are t's three coordinates. A block's coordinate on an axis is always (block index) × (block size) + the
  coordinate inside the block; the block indices are the printed index maps, decided here once for all 256 points.
-/
import proofs.«100002_j86586540687542_1_alg».proof.Proof.Gen.KernelIdeal.Frame.Runs
import proofs.«100002_j86586540687542_1_alg».proof.Proof.LinearSpec
import Idealize.ShloMosaic.Lib.Pipeline.Value
import Idealize.ShloMosaic.Lib.ValueIdx

noncomputable section

namespace Cert.QuantLinear.Kernel

open Idealize.ShloMosaic Idealize.ShloMosaic.TcCoe Idealize.ShloMosaic.ValueIdx Idealize.SL.Sem
open Cert.KernelIdeal Cert.KernelIdeal.Gen

variable {F : FTy → Type} [FloatOps F]
variable (m : (ℓ : Loc nD τ sig) → Buf (Elt F) ℓ)

/-! ## A point's three coordinates -/

theorem point_lt (t : Fin cfg0.N) : t.val < 256 := lt_of_lt_of_eq t.isLt (show cfg0.N = 256 from N_0)

def rowTile (t : Fin cfg0.N) : Fin 8 := ⟨t.val / 32, by have := point_lt t; omega⟩
def colTile (t : Fin cfg0.N) : Fin 4 := ⟨t.val / 8 % 4, by omega⟩
def runOf (t : Fin cfg0.N) : Fin 8 := ⟨t.val % 8, by omega⟩

/-- Row p of row-tile a, and column q of column-tile b, in the whole arrays. -/
def rowAt (a : Fin 8) (p : Fin 1024) : Fin 8192 := ⟨a.val * 1024 + p.val, by have := a.isLt; have := p.isLt; omega⟩
def colAt (b : Fin 4) (q : Fin 1024) : Fin 4096 := ⟨b.val * 1024 + q.val, by have := b.isLt; have := q.isLt; omega⟩

/-- The printed index maps at every point: which block of its array each window holds. -/
theorem index_facts : ∀ t : Fin cfg0.N,
    win0_0.index t (0 : Fin 2) = t.val / 32 ∧ win0_0.index t (1 : Fin 2) = t.val % 8
    ∧ win0_1.index t (0 : Fin 2) = t.val % 8 ∧ win0_1.index t (1 : Fin 2) = t.val / 8 % 4
    ∧ win0_2.index t (0 : Fin 2) = t.val % 8 ∧ win0_2.index t (1 : Fin 2) = t.val / 8 % 4
    ∧ win0_3.index t (0 : Fin 2) = 0 ∧ win0_3.index t (1 : Fin 2) = t.val / 8 % 4
    ∧ win0_4.index t (0 : Fin 2) = t.val / 32 ∧ win0_4.index t (1 : Fin 2) = t.val / 8 % 4 :=
  (by decide +kernel : ∀ t : Fin grid0.N, _)

/-! ## The four input blocks at a point, entry by entry -/

theorem rows_block (c : Dev nD) (t : Fin cfg0.N) (p : Fin 1024) (r : Fin 512) :
    (iblk m c 0 t : Vec F S1024x512 .f32) (ix2 p r) = V m c main_v0 (ix2 (rowAt (rowTile t) p) (inRun (runOf t) r)) := by
  obtain ⟨e0, e1, -⟩ := index_facts t
  unfold iblk
  rw [View.read_apply]
  show V m c main_v0 _ = V m c main_v0 _
  refine congrArg (V m c main_v0) (funext fun a => Fin.ext ?_)
  match a with
  | ⟨0, _⟩ =>
    show win0_0.index t (0 : Fin 2) * 1024 + 1 * p.val = t.val / 32 * 1024 + p.val
    rw [e0]; omega
  | ⟨1, _⟩ =>
    show win0_0.index t (1 : Fin 2) * 512 + 1 * r.val = t.val % 8 * 512 + r.val
    rw [e1]; omega

theorem codes_block (c : Dev nD) (t : Fin cfg0.N) (r : Fin 512) (q : Fin 1024) :
    (iblk m c 1 t : Vec F S512x1024 .i32) (ix2 r q) = V m c main_arg1 (ix2 (inRun (runOf t) r) (colAt (colTile t) q)) := by
  obtain ⟨-, -, e0, e1, -⟩ := index_facts t
  unfold iblk
  rw [View.read_apply]
  show V m c main_arg1 _ = V m c main_arg1 _
  refine congrArg (V m c main_arg1) (funext fun a => Fin.ext ?_)
  match a with
  | ⟨0, _⟩ =>
    show win0_1.index t (0 : Fin 2) * 512 + 1 * r.val = t.val % 8 * 512 + r.val
    rw [e0]; omega
  | ⟨1, _⟩ =>
    show win0_1.index t (1 : Fin 2) * 1024 + 1 * q.val = t.val / 8 % 4 * 1024 + q.val
    rw [e1]; omega

theorem scales_block (c : Dev nD) (t : Fin cfg0.N) (r : Fin 512) (q : Fin 1024) :
    (iblk m c 2 t : Vec F S512x1024 .f32) (ix2 r q) = V m c main_v2 (ix2 (inRun (runOf t) r) (colAt (colTile t) q)) := by
  obtain ⟨-, -, -, -, e0, e1, -⟩ := index_facts t
  unfold iblk
  rw [View.read_apply]
  show V m c main_v2 _ = V m c main_v2 _
  refine congrArg (V m c main_v2) (funext fun a => Fin.ext ?_)
  match a with
  | ⟨0, _⟩ =>
    show win0_2.index t (0 : Fin 2) * 512 + 1 * r.val = t.val % 8 * 512 + r.val
    rw [e0]; omega
  | ⟨1, _⟩ =>
    show win0_2.index t (1 : Fin 2) * 1024 + 1 * q.val = t.val / 8 % 4 * 1024 + q.val
    rw [e1]; omega

theorem bias_block (c : Dev nD) (t : Fin cfg0.N) (q : Fin 1024) :
    (iblk m c 3 t : Vec F S1x1024 .f32) (ix2 (0 : Fin 1) q) = V m c main_v3 (ix2 (0 : Fin 1) (colAt (colTile t) q)) := by
  obtain ⟨-, -, -, -, -, -, e0, e1, -⟩ := index_facts t
  unfold iblk
  rw [View.read_apply]
  show V m c main_v3 _ = V m c main_v3 _
  refine congrArg (V m c main_v3) (funext fun a => Fin.ext ?_)
  match a with
  | ⟨0, _⟩ =>
    show win0_3.index t (0 : Fin 2) * 1 + 1 * 0 = 0
    rw [e0]
  | ⟨1, _⟩ =>
    show win0_3.index t (1 : Fin 2) * 1024 + 1 * q.val = t.val / 8 % 4 * 1024 + q.val
    rw [e1]; omega

end Cert.QuantLinear.Kernel

end
-- ==== Proof.RegionArrays.lean ====
/-
  The arrays the kernel's region finds, read at an index. Three host operations run before the call:
    • the activations [2, 4096, 4096] have their two leading axes merged into 8192 rows: row r, column i is the
      activation at (r / 4096, r % 4096, i), the same row-major position;
    • the scales [4096, 128] are repeated 32 times along a new last axis and the two last axes merged: entry (i, o) is
      the scale at (i, o / 32), because position 32 g + j of the merged axis is place j of group g;
    • the bias [4096] becomes the one row of a [1, 4096] array.
  The codes reach the call as they were given.
-/
import proofs.«100002_j86586540687542_1_alg».proof.Proof.Gen.KernelIdeal.Frame.Runs
import proofs.«100002_j86586540687542_1_alg».proof.Proof.LinearSpec
import Idealize.ShloMosaic.Lib.Pipeline.Value
import Idealize.ShloMosaic.Lib.ValueIdx
import Idealize.ShloMosaic.Lib.StableHlo.Run

noncomputable section

namespace Cert.QuantLinear.Kernel

open Idealize.ShloMosaic Idealize.ShloMosaic.TcCoe Idealize.ShloMosaic.ValueIdx Idealize.SL.Sem
open Cert.KernelIdeal Cert.KernelIdeal.Gen

variable {F : FTy → Type} [FloatOps F]
variable (m : (ℓ : Loc nD τ sig) → Buf (Elt F) ℓ)

/-! ## The three prepared arrays as terms of the arguments -/

theorem rows_array (c : Dev nD) :
    (V m c main_v0 : S8192x4096.Idx → Elt F .f32)
      = shapeCast S8192x4096 (m ((c : Thread nD τ).loc main_arg0)) shapeCasts_S2x4096x4096_S8192x4096 := by
  show StableHlo.after hostOps0 (fun b => m (c, b)) (Proc.devRef .tc main_v0) = _
  after_results
  rfl

theorem scales_array (c : Dev nD) :
    (V m c main_v2 : S4096x4096.Idx → Elt F .f32)
      = shapeCast S4096x4096 (broadcastInDim S4096x128x32 ![0, 1] bcast_S4096x128_S4096x128x32_0_1
          (m ((c : Thread nD τ).loc main_arg2))) shapeCasts_S4096x128x32_S4096x4096 := by
  show StableHlo.after hostOps0 (fun b => m (c, b)) (Proc.devRef .tc main_v2) = _
  after_results
  rfl

theorem bias_array (c : Dev nD) :
    (V m c main_v3 : S1x4096.Idx → Elt F .f32)
      = shapeCast S1x4096 (m ((c : Thread nD τ).loc main_arg3)) shapeCasts_S4096_S1x4096 := by
  show StableHlo.after hostOps0 (fun b => m (c, b)) (Proc.devRef .tc main_v3) = _
  after_results
  rfl

/-! ## Read at an index -/

/-- The batch and position of row `r` of the merged activations. -/
def batchOf (r : Fin 8192) : Fin 2 := ⟨r.val / 4096, by have := r.isLt; omega⟩
def posOf (r : Fin 8192) : Fin 4096 := ⟨r.val % 4096, Nat.mod_lt _ (by norm_num)⟩

theorem rows_apply (c : Dev nD) (r : Fin 8192) (i : Fin 4096) :
    V m c main_v0 (ix2 r i) = m ((c : Thread nD τ).loc main_arg0) (ix3 (batchOf r) (posOf r) i) := by
  rw [rows_array]
  exact shapeCast_apply _ shapeCasts_S2x4096x4096_S8192x4096 (ix2 r i) (ix3 (batchOf r) (posOf r) i) (by
    rewrite [Shape.rowMajor_val_three, Shape.rowMajor_val_two]
    have hr := r.isLt
    show (r.val / 4096 * 4096 + r.val % 4096) * 4096 + i.val = r.val * 4096 + i.val
    omega)

theorem scales_apply (c : Dev nD) (i o : Fin 4096) :
    V m c main_v2 (ix2 i o) = m ((c : Thread nD τ).loc main_arg2) (ix2 i (group o)) := by
  rw [scales_array]
  have ho := o.isLt
  refine (shapeCast_apply _ shapeCasts_S4096x128x32_S4096x4096 (ix2 i o)
    (ix3 i (group o) (⟨o.val % 32, Nat.mod_lt _ (by norm_num)⟩ : Fin 32)) (by
      rewrite [Shape.rowMajor_val_three, Shape.rowMajor_val_two]
      show (i.val * 128 + o.val / 32) * 32 + o.val % 32 = i.val * 4096 + o.val
      omega)).trans ?_
  exact broadcastInDim_apply _ bcast_S4096x128_S4096x128x32_0_1 _ _ (ix2 i (group o)) (fun a => match a with
    | ⟨0, _⟩ => by show i.val = if (4096 : Nat) = 1 then 0 else i.val; rw [if_neg (by decide)]
    | ⟨1, _⟩ => by show o.val / 32 = if (128 : Nat) = 1 then 0 else o.val / 32; rw [if_neg (by decide)])

theorem bias_apply (c : Dev nD) (o : Fin 4096) :
    V m c main_v3 (ix2 (0 : Fin 1) o) = m ((c : Thread nD τ).loc main_arg3) (ix1 o) := by
  rw [bias_array]
  exact shapeCast_apply _ shapeCasts_S4096_S1x4096 (ix2 (0 : Fin 1) o) (ix1 o) (by
    rewrite [Shape.rowMajor_val_one, Shape.rowMajor_val_two]
    show o.val = 0 * 4096 + o.val
    omega)

end Cert.QuantLinear.Kernel

end
-- ==== Proof.RunningTotal.lean ====
/-
  The scratch carried across the contraction axis is the running total of the layer's sum. Fix a tile (row-tile a,
  column-tile b). Its eight points k = 0 … 7 are consecutive, and after point k the scratch's entry (p, q) holds

      ∑ over the runs 0 … k of (∑ r < 512, x[row, 512 run + r] · weight[512 run + r, column]),

  for row = 1024 a + p and column = 1024 b + q: at k = 0 the scratch is reset and receives 0 + (run 0's sum), and each
  later point adds its own run's sum to what the point before left. At k = 7 the total is the whole sum over the 4096
  inputs, and the output tile receives it plus the bias of the column. The proof is an induction on the point's
  position, never an enumeration of the grid.
-/
import proofs.«100002_j86586540687542_1_alg».proof.Proof.CaseValues
import proofs.«100002_j86586540687542_1_alg».proof.Proof.BodyValues
import proofs.«100002_j86586540687542_1_alg».proof.Proof.TileBlocks
import proofs.«100002_j86586540687542_1_alg».proof.Proof.RegionArrays

noncomputable section

open scoped BigOperators

namespace Cert.QuantLinear.Kernel

open Idealize.ShloMosaic Idealize.ShloMosaic.TcCoe Idealize.ShloMosaic.ValueIdx Idealize.SL.Sem
open Cert.KernelIdeal Cert.KernelIdeal.Gen

/-! ## What a point leaves, from what it found -/

section AnyValues

variable {F : FTy → Type} [FloatOps F]
variable (m : (ℓ : Loc nD τ sig) → Buf (Elt F) ℓ)

/-- At the first run of a tile the scratch ends at the accumulation step over the zero tile. -/
theorem scratch_at_first (c : Dev nD) (t : Fin cfg0.N) (h0 : t.val % 8 = 0) :
    (outsAt0 m c t.val t.isLt).2 = k0_pay2 (iblk m c 1 t) (iblk m c 2 t) (iblk m c 0 t) (k0_pay1 (F := F)) := by
  have h1 : ¬t.val % 8 = 7 := by omega
  rw [outsAt0_A m c t h0 h1]
  dsimp only
  exact Body.scratch_first c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)

/-- At a later run it ends at the accumulation step over what the point before left. -/
theorem scratch_at_later (c : Dev nD) (t : Fin cfg0.N) (h0 : ¬t.val % 8 = 0) :
    (outsAt0 m c t.val t.isLt).2
      = k0_pay2 (iblk m c 1 t) (iblk m c 2 t) (iblk m c 0 t)
          (outsAt0 m c (t.val - 1) (Nat.lt_of_le_of_lt (Nat.sub_le _ _) t.isLt)).2 := by
  by_cases h1 : t.val % 8 = 7
  · rw [outsAt0_C m c t h0 h1]
    dsimp only
    exact Body.scratch_last c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) _
  · rw [outsAt0_B m c t h0 h1]
    dsimp only
    exact Body.scratch_middle c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) _

/-- At the last run the output tile ends at the final step of the scratch the same point leaves. -/
theorem output_at_last (c : Dev nD) (t : Fin cfg0.N) (h1 : t.val % 8 = 7) :
    (outsAt0 m c t.val t.isLt).1 = k0_pay3 (outsAt0 m c t.val t.isLt).2 (iblk m c 3 t) := by
  have h0 : ¬t.val % 8 = 0 := by omega
  rw [outsAt0_C m c t h0 h1]
  dsimp only
  rw [Body.output_last c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) _,
    Body.scratch_last c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) _]

end AnyValues

/-! ## On the extended reals: the running total -/

variable (m : (ℓ : Loc nD τ sig) → Buf (Elt Ideal) ℓ)

/-- Run k's part of the layer's sum for row R of the merged activations and output column O. -/
def runSum (c : Dev nD) (R : Fin 8192) (O : Fin 4096) (k : Fin 8) : EReal :=
  ∑ r : Fin 512, term (m ((c : Thread nD τ).loc main_arg0)) (m ((c : Thread nD τ).loc main_arg1))
    (m ((c : Thread nD τ).loc main_arg2)) (batchOf R) (posOf R) O (inRun k r)

/-- The sum of products a point's blocks give at tile entry (p, q) is its run's part of the layer's sum. (The blocks enter as
    vectors of the body's load types, equal to the windows' blocks at the point.) -/
theorem block_sum (c : Dev nD) (t : Fin cfg0.N) (p q : Fin 1024) (a : Vec Ideal S1024x512 .f32) (code : Vec Ideal S512x1024 .i32)
    (scale : Vec Ideal S512x1024 .f32) (ha : a = iblk m c 0 t) (hc : code = iblk m c 1 t) (hs : scale = iblk m c 2 t) :
    (∑ r : Fin 512, a (ix2 p r) * ((((code (ix2 r q)).toInt : ℝ) : EReal) * scale (ix2 r q)))
      = runSum m c (rowAt (rowTile t) p) (colAt (colTile t) q) (runOf t) := by
  subst ha hc hs
  unfold runSum
  refine Finset.sum_congr rfl fun r _ => ?_
  rw [rows_block, codes_block, scales_block, rows_apply, scales_apply, V_main_arg1]
  rfl

/-- THE INVARIANT: after the point at position n the scratch's entry (p, q) is the running total up to that point's run. -/
theorem scratch_eq (c : Dev nD) : ∀ (n : ℕ) (h : n < cfg0.N) (p q : Fin 1024),
    (outsAt0 m c n h).2 (ix2 p q)
      = partialSum (runSum m c (rowAt (rowTile ⟨n, h⟩) p) (colAt (colTile ⟨n, h⟩) q)) (runOf ⟨n, h⟩)
  | 0, h, p, q => by
    have e := scratch_at_first m c ⟨0, h⟩ (Nat.zero_mod _)
    refine (congrFun e (ix2 p q)).trans ?_
    refine (Body.accumulate_apply (iblk m c 1 ⟨0, h⟩) (iblk m c 2 ⟨0, h⟩) (iblk m c 0 ⟨0, h⟩) _ p q).trans ?_
    rw [Body.zeros_apply, zero_add, block_sum m c ⟨0, h⟩ p q (iblk m c 0 ⟨0, h⟩) (iblk m c 1 ⟨0, h⟩) (iblk m c 2 ⟨0, h⟩) rfl rfl rfl,
      partialSum_first _ _ (show (runOf ⟨0, h⟩).val = 0 from rfl)]
  | n + 1, h, p, q => by
    have hN : n + 1 < 256 := point_lt ⟨n + 1, h⟩
    by_cases h0 : (n + 1) % 8 = 0
    · have e := scratch_at_first m c ⟨n + 1, h⟩ h0
      refine (congrFun e (ix2 p q)).trans ?_
      refine (Body.accumulate_apply (iblk m c 1 ⟨n + 1, h⟩) (iblk m c 2 ⟨n + 1, h⟩) (iblk m c 0 ⟨n + 1, h⟩) _ p q).trans ?_
      rw [Body.zeros_apply, zero_add,
        block_sum m c ⟨n + 1, h⟩ p q (iblk m c 0 ⟨n + 1, h⟩) (iblk m c 1 ⟨n + 1, h⟩) (iblk m c 2 ⟨n + 1, h⟩) rfl rfl rfl,
        partialSum_first _ _ (show (runOf ⟨n + 1, h⟩).val = 0 from h0)]
    · have e := scratch_at_later m c ⟨n + 1, h⟩ h0
      refine (congrFun e (ix2 p q)).trans ?_
      refine (Body.accumulate_apply (iblk m c 1 ⟨n + 1, h⟩) (iblk m c 2 ⟨n + 1, h⟩) (iblk m c 0 ⟨n + 1, h⟩) _ p q).trans ?_
      have hn : n < cfg0.N := Nat.lt_of_succ_lt h
      have ih := scratch_eq c n hn p q
      have ea : rowTile ⟨n, hn⟩ = rowTile ⟨n + 1, h⟩ := Fin.ext (by show n / 32 = (n + 1) / 32; omega)
      have eb : colTile ⟨n, hn⟩ = colTile ⟨n + 1, h⟩ := Fin.ext (by show n / 8 % 4 = (n + 1) / 8 % 4; omega)
      have ek : (runOf ⟨n, hn⟩).val + 1 = (runOf ⟨n + 1, h⟩).val := by show n % 8 + 1 = (n + 1) % 8; omega
      rw [ea, eb] at ih
      show (outsAt0 m c n _).2 (ix2 p q) + _ = _
      rw [ih, block_sum m c ⟨n + 1, h⟩ p q (iblk m c 0 ⟨n + 1, h⟩) (iblk m c 1 ⟨n + 1, h⟩) (iblk m c 2 ⟨n + 1, h⟩) rfl rfl rfl,
        partialSum_next _ _ _ ek]

/-- So after a tile's last run the output tile's entry (p, q) is the layer's whole sum for its row and column, plus the
    column's bias. -/
theorem output_eq (c : Dev nD) (t : Fin cfg0.N) (h1 : t.val % 8 = 7) (p q : Fin 1024) :
    (outsAt0 m c t.val t.isLt).1 (ix2 p q)
      = (∑ i : Fin 4096, term (m ((c : Thread nD τ).loc main_arg0)) (m ((c : Thread nD τ).loc main_arg1))
            (m ((c : Thread nD τ).loc main_arg2)) (batchOf (rowAt (rowTile t) p)) (posOf (rowAt (rowTile t) p))
            (colAt (colTile t) q) i)
          + m ((c : Thread nD τ).loc main_arg3) (ix1 (colAt (colTile t) q)) := by
  refine (congrFun (output_at_last m c t h1) (ix2 p q)).trans ?_
  refine (Body.add_bias_apply _ (iblk m c 3 t) p q).trans ?_
  rw [scratch_eq m c t.val t.isLt p q, partialSum_last _ _ (show (runOf t).val = 7 from h1), bias_block, bias_apply,
    sum_runs]
  rfl

end Cert.QuantLinear.Kernel

end
-- ==== Proof.OutputArray.lean ====
/-
  The array the region leaves. Output tiles are written back only at a tile's last run (the points t with t % 8 = 7), one
  per (row-tile, column-tile); the 8 × 4 tiles of 1024 × 1024 fill the [8192, 4096] array, and each written tile is its
  block of ONE function of the arguments: entry (R, O) is the layer's sum for row R of the merged activations and column
  O, plus the bias of O. So the whole array ends at that function.
-/
import proofs.«100002_j86586540687542_1_alg».proof.Proof.RunningTotal

noncomputable section

open scoped BigOperators

namespace Cert.QuantLinear.Kernel

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ)

/-- The layer over the merged rows: entry (R, O) of the [8192, 4096] result. -/
def merged (c : Dev nD) : S8192x4096.Idx → EReal := fun j =>
  (∑ i : Fin 4096, term (m ((c : Thread nD τ).loc main_arg0)) (m ((c : Thread nD τ).loc main_arg1))
      (m ((c : Thread nD τ).loc main_arg2)) (batchOf (j 0)) (posOf (j 0)) (j 1) i)
    + m ((c : Thread nD τ).loc main_arg3) (ix1 (j 1))

/-- Entry (p, q) of point t's output tile is entry (1024 a + p, 1024 b + q) of the array, (a, b) the point's tile. -/
theorem tile_entry (t : Fin cfg0.N) (p q : Fin 1024) :
    ((cfg0.win 4).blk t).view.emb (ix2 p q) = ix2 (rowAt (rowTile t) p) (colAt (colTile t) q) := by
  obtain ⟨-, -, -, -, -, -, -, -, e0, e1⟩ := index_facts t
  refine funext fun a => Fin.ext ?_
  match a with
  | ⟨0, _⟩ =>
    show win0_4.index t (0 : Fin 2) * 1024 + 1 * p.val = t.val / 32 * 1024 + p.val
    rw [e0]; omega
  | ⟨1, _⟩ =>
    show win0_4.index t (1 : Fin 2) * 1024 + 1 * q.val = t.val / 8 % 4 * 1024 + q.val
    rw [e1]; omega

/-- What a writing point writes back is its tile of the merged layer. -/
theorem flushed_eq (c : Dev nD) (t : Fin cfg0.N) (hf : (cfg0.win 4).flush t = true) :
    (dats m 0 c).flushed 4 t = ((cfg0.win 4).blk t).view.read (Elt Ideal) (merged m c) := by
  have h7 : t.val % 8 = 7 := (flush0_4 t).mp hf
  show (cfg0.win 4).cut (grid0.coords t) ((dats m 0 c).after 4 t) = _
  rw [after0_4]
  funext y
  obtain ⟨p, q, rfl⟩ : ∃ (p q : Fin 1024), y = ix2 p q := ⟨y 0, y 1, eq_ix2 y⟩
  show (outsAt0 m c t.val t.isLt).1 (ix2 p q) = merged m c (((cfg0.win 4).blk t).view.emb (ix2 p q))
  rw [output_eq m c t h7 p q, tile_entry]
  rfl

/-- An index of the array lies in point t's tile iff each coordinate lies in the tile's range on its axis. -/
theorem mem_tile (t : Fin cfg0.N) (i : S8192x4096.Idx) :
    i ∈ ((cfg0.win 4).blk t).view.set
      ↔ ∀ a : Fin 2, win0_4.index t a * S1024x1024.size a ≤ (i a).val
          ∧ (i a).val < win0_4.index t a * S1024x1024.size a + S1024x1024.size a := by
  show i ∈ ((View.whole main_v4).slice (win0_4.rect t)).set ↔ _
  rw [View.set_slice_whole, Rect.mem_set_unit]
  exact Iff.rfl

/-- Every index of the array is in the tile some writing point writes: the last run of its row-tile and column-tile. -/
theorem covered (i : S8192x4096.Idx) :
    ∃ t : Fin cfg0.N, (cfg0.win 4).flush t = true ∧ i ∈ ((cfg0.win 4).blk t).view.set := by
  have h0 : (i 0).val < 8192 := (i 0).isLt
  have h1 : (i 1).val < 4096 := (i 1).isLt
  have hN : cfg0.N = 256 := N_0
  let t : Fin cfg0.N := ⟨((i 0).val / 1024 * 4 + (i 1).val / 1024) * 8 + 7, by rw [hN]; omega⟩
  have ht : t.val = ((i 0).val / 1024 * 4 + (i 1).val / 1024) * 8 + 7 := rfl
  obtain ⟨-, -, -, -, -, -, -, -, e0, e1⟩ := index_facts t
  refine ⟨t, (flush0_4 t).mpr (by rw [ht]; omega), ?_⟩
  rw [mem_tile]
  intro a
  match a with
  | ⟨0, _⟩ =>
    show win0_4.index t (0 : Fin 2) * 1024 ≤ (i 0).val ∧ (i 0).val < win0_4.index t (0 : Fin 2) * 1024 + 1024
    rw [e0, ht]; omega
  | ⟨1, _⟩ =>
    show win0_4.index t (1 : Fin 2) * 1024 ≤ (i 1).val ∧ (i 1).val < win0_4.index t (1 : Fin 2) * 1024 + 1024
    rw [e1, ht]; omega

/-- So the region leaves the merged layer in its result array. -/
theorem result_array (c : Dev nD) : (dats m 0 c).arrAt 4 cfg0.N = merged m c :=
  (dats m 0 c).arrAt_eq_of_cover 4 (merged m c) (flushed_eq m c) covered

end Cert.QuantLinear.Kernel

end
-- ==== Proof.KernelRun.lean ====
/-
  The kernel's run, with its result named. After the region one host operation splits the 8192 merged rows back into
  [2, 4096]: entry (b, s, o) of the result is entry (4096 b + s, o) of the region's array, the same row-major position,
  and row 4096 b + s of the merged activations is row (b, s) of the argument. So the result is the layer.
-/
import proofs.«100002_j86586540687542_1_alg».proof.Proof.OutputArray
import Idealize.ShloMosaic.Lib.StableHlo.Run

noncomputable section

open scoped BigOperators

namespace Cert.QuantLinear.Kernel

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- Row (b, s) of the argument among the merged rows. -/
def mergedRow (b : Fin 2) (s : Fin 4096) : Fin 8192 := ⟨b.val * 4096 + s.val, by have := b.isLt; have := s.isLt; omega⟩

theorem batchOf_mergedRow (b : Fin 2) (s : Fin 4096) : batchOf (mergedRow b s) = b :=
  Fin.ext (by have := s.isLt; show (b.val * 4096 + s.val) / 4096 = b.val; omega)

theorem posOf_mergedRow (b : Fin 2) (s : Fin 4096) : posOf (mergedRow b s) = s :=
  Fin.ext (by have := s.isLt; show (b.val * 4096 + s.val) % 4096 = s.val; omega)

/-- What the host operation after the region leaves in the result: the layer. -/
theorem tail_eq (c : Dev nD) :
    Pipeline.afterTail₀ cfgs (dats m) 0 (V0 m) [hostOps1] c main_v5
      = linear (m ((c.tc : Thread nD τ).loc main_arg0)) (m ((c.tc : Thread nD τ).loc main_arg1))
          (m ((c.tc : Thread nD τ).loc main_arg2)) (m ((c.tc : Thread nD τ).loc main_arg3)) := by
  unfold Pipeline.afterTail₀
  show StableHlo.after hostOps1 _ (Proc.devRef .tc main_v5) = _
  after_results
  funext j
  obtain ⟨b, s, o, rfl⟩ : ∃ (b : Fin 2) (s o : Fin 4096), j = ix3 b s o := ⟨j 0, j 1, j 2, eq_ix3 j⟩
  show shapeCast S2x4096x4096 (Pipeline.withArrays spec0 c (V0 m c) (fun w => (dats m 0 c).arrAt w cfg0.N)
      (Proc.devRef .tc main_v4)) shapeCasts_S8192x4096_S2x4096x4096 (ix3 b s o) = _
  rw [show Pipeline.withArrays spec0 c (V0 m c) (fun w => (dats m 0 c).arrAt w cfg0.N) (Proc.devRef .tc main_v4) = merged m c from
    (Pipeline.withArrays_arr spec0 launch0.win.arr_inj c _ _ 4).trans (result_array m c)]
  refine (shapeCast_apply _ shapeCasts_S8192x4096_S2x4096x4096 (ix3 b s o) (ix2 (mergedRow b s) o) (by
    rewrite [Shape.rowMajor_val_two, Shape.rowMajor_val_three]
    show (b.val * 4096 + s.val) * 4096 + o.val = (b.val * 4096 + s.val) * 4096 + o.val
    rfl)).trans ?_
  show (∑ i : Fin 4096, term _ _ _ (batchOf (mergedRow b s)) (posOf (mergedRow b s)) o i) + _
      = (∑ i : Fin 4096, term _ _ _ b s o i) + _
  rw [batchOf_mergedRow, posOf_mergedRow]

/-- Every weakly fair execution of the idealized kernel's program terminates with the result at the layer of the arguments,
    and the arguments unchanged. -/
theorem run : θ_run defs (onTc (τ := τ) (main (F := Ideal))) ⟨m, fun _ => 0, ρ⟩ fun r => ∀ c : Dev nD,
      r.2.mem ((c.tc : Thread nD τ).loc main_v5)
          = linear (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v5 (Pipeline.mem_restRefs_of main_v5 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.QuantLinear.Kernel

end
-- ==== Proof.lean ====
/-
  A linear layer with a block-quantized weight, and its reference, compute the same function on the extended reals.

  The weight is stored as signed integer codes [4096, 4096] with one real scale for every run of 32 consecutive output
  columns; the layer is
      out[b, s, o] = (∑ i < 4096, x[b, s, i] · (code[i, o] · scale[i, o / 32])) + bias[o].
  The reference forms the dequantized weight, contracts it with the activations in one sum over i, and adds the bias. The
  kernel tiles the 8192 merged rows (b, s), the 4096 columns and the 4096 inputs as 8 × 4 × 8 blocks; for each output
  tile it resets a scratch to zero, adds to it the sum over each of the eight runs of 512 inputs in turn, and after the
  last run writes the scratch plus the bias. Changes of float format are the identity on the extended reals, and a matrix
  product into a zero accumulator is a plain sum there, so after a tile's last run the scratch holds
  0 + ∑ over the eight runs of the runs' sums — the sum over all 4096 inputs, because addition on the extended reals is
  commutative and associative (infinite terms included). No finiteness of the inputs is used.

  The three frames are the programs' runs with the results forgotten; the kernel's idealization rewrote nothing, so there
  is nothing to preserve; and both idealized programs end at `QuantLinear.linear` of arguments that agree.
-/
import proofs.«100002_j86586540687542_1_alg».proof.Defs
import proofs.«100002_j86586540687542_1_alg».proof.Proof.Gen.Kernel
import proofs.«100002_j86586540687542_1_alg».proof.Proof.Gen.Kernel.Skeleton
import proofs.«100002_j86586540687542_1_alg».proof.Proof.Gen.Kernel.Launch
import proofs.«100002_j86586540687542_1_alg».proof.Proof.Gen.Kernel.Points
import proofs.«100002_j86586540687542_1_alg».proof.Proof.Gen.Kernel.Frame
import proofs.«100002_j86586540687542_1_alg».proof.Proof.Gen.KernelIdeal
import proofs.«100002_j86586540687542_1_alg».proof.Proof.Gen.KernelIdeal.Skeleton
import proofs.«100002_j86586540687542_1_alg».proof.Proof.Gen.KernelIdeal.Launch
import proofs.«100002_j86586540687542_1_alg».proof.Proof.Gen.KernelIdeal.Points
import proofs.«100002_j86586540687542_1_alg».proof.Proof.Gen.KernelIdeal.Frame
import proofs.«100002_j86586540687542_1_alg».proof.Proof.Gen.ReferenceIdeal
import proofs.«100002_j86586540687542_1_alg».proof.Proof.Gen.Pre_finite_inputs
import proofs.«100002_j86586540687542_1_alg».proof.Proof.Gen.ReferenceIdeal.Run
import proofs.«100002_j86586540687542_1_alg».proof.Proof.Gen.ReferenceIdeal.Read
import proofs.«100002_j86586540687542_1_alg».proof.Proof.ReferenceIsLinear
import proofs.«100002_j86586540687542_1_alg».proof.Proof.KernelRun
import Idealize.ShloMosaic.Adequacy
import Idealize.ShloMosaic.Init

noncomputable section

namespace Cert.Proof

open Idealize.ShloMosaic Idealize.SL.Sem

/-- The kernel as printed runs to the end from any memory, its arguments unchanged. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference's frame is its run with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- From memories that agree on the four arguments the idealized kernel ends at the layer of its arguments and the
    idealized reference at the layer of its own: one array of extended reals. -/
theorem algebraic : Cert.algebraic_KernelIdeal_ReferenceIdeal := by
  intro m ρ m' ρ' _ hagree
  refine ⟨fun c => Cert.QuantLinear.linear
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.QuantLinear.Kernel.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v9_eq, Cert.QuantLinear.reference_eq, (hagree c).1, (hagree c).2.1,
    (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
